-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x56x56x256 : Shape := ⟨4, ![32, 56, 56, 256]⟩
abbrev S1x1x256x160 : Shape := ⟨4, ![1, 1, 256, 160]⟩
abbrev S_ : Shape := ⟨0, ![]⟩

class Facts : Prop where
  bcast_S_S32x56x56x256 : S_.BroadcastsInDim S32x56x56x256 (![] : Fin 0 → Fin S32x56x56x256.rank)
  reducesTo_S32x56x56x256_S_d0_1_2_3 : S32x56x56x256.ReducesTo [0, 1, 2, 3] S_
  h_S_ : 0 < S_.numel
  bcast_S_S1x1x256x160 : S_.BroadcastsInDim S1x1x256x160 (![] : Fin 0 → Fin S1x1x256x160.rank)
  reducesTo_S1x1x256x160_S_d0_1_2_3 : S1x1x256x160.ReducesTo [0, 1, 2, 3] S_

variable [Facts]

def fn {F : FTy → Type} [FloatOps F] (main_arg0 : FVec F S32x56x56x256 .f32) (main_arg1 : FVec F S1x1x256x160 .f32) : IVec S_ 1 :=
  let main_v0 : FVec F S32x56x56x256 .f32 := Host.absf main_arg0
  let main_cst : FVec F S_ .f32 := constant S_ .f32 0x7F800000#32
  let main_v1 : FVec F S32x56x56x256 .f32 := broadcastInDim S32x56x56x256 ![] bcast_S_S32x56x56x256 main_cst
  let main_v2 : IVec S32x56x56x256 1 := cmpf .olt main_v0 main_v1
  let main_c : IVec S_ 1 := constantI S_ 1 1#1
  let main_v3 : IVec S_ 1 := (fun x v => Host.reduce IntOp.andi x v reducesTo_S32x56x56x256_S_d0_1_2_3 h_S_) main_v2 main_c
  let main_v4 : FVec F S1x1x256x160 .f32 := Host.absf main_arg1
  let main_cst_0 : FVec F S_ .f32 := constant S_ .f32 0x7F800000#32
  let main_v5 : FVec F S1x1x256x160 .f32 := broadcastInDim S1x1x256x160 ![] bcast_S_S1x1x256x160 main_cst_0
  let main_v6 : IVec S1x1x256x160 1 := cmpf .olt main_v4 main_v5
  let main_c_1 : IVec S_ 1 := constantI S_ 1 1#1
  let main_v7 : IVec S_ 1 := (fun x v => Host.reduce IntOp.andi x v reducesTo_S1x1x256x160_S_d0_1_2_3 h_S_) main_v6 main_c_1
  let main_v8 : IVec S_ 1 := andi main_v3 main_v7
  main_v8
-- ==== Kernel.lean ====
abbrev S32x56x56x256 : Shape := ⟨4, ![32, 56, 56, 256]⟩
abbrev S1x1x256x160 : Shape := ⟨4, ![1, 1, 256, 160]⟩
abbrev S256x10x16 : Shape := ⟨3, ![256, 10, 16]⟩
abbrev S_ : Shape := ⟨0, ![]⟩
abbrev S256x16 : Shape := ⟨2, ![256, 16]⟩
abbrev S100352x256 : Shape := ⟨2, ![100352, 256]⟩
abbrev S100352x16 : Shape := ⟨2, ![100352, 16]⟩
abbrev S6272x256 : Shape := ⟨2, ![6272, 256]⟩
abbrev S6272x16 : Shape := ⟨2, ![6272, 16]⟩
abbrev S32x56x56x16 : Shape := ⟨4, ![32, 56, 56, 16]⟩

abbrev nBuf : Space → Nat
  | .hbm => 8
  | .vmem => 5
  | .smem => 0
  | _ => 0

abbrev bufTy : (tb : Table) → Fin (tcTables nBuf tb) → BufTy
  | .hbm, ⟨0, _⟩ => ⟨S32x56x56x256, .f32⟩
  | .hbm, ⟨1, _⟩ => ⟨S1x1x256x160, .f32⟩
  | .hbm, ⟨2, _⟩ => ⟨S256x10x16, .f32⟩
  | .hbm, ⟨3, _⟩ => ⟨S_, .f32⟩
  | .hbm, ⟨4, _⟩ => ⟨S256x16, .f32⟩
  | .hbm, ⟨5, _⟩ => ⟨S100352x256, .f32⟩
  | .hbm, ⟨6, _⟩ => ⟨S100352x16, .f32⟩
  | .hbm, ⟨7, _⟩ => ⟨S32x56x56x16, .f32⟩
  | .local _ .vmem, ⟨0, _⟩ => ⟨S6272x256, .f32⟩
  | .local _ .vmem, ⟨1, _⟩ => ⟨S6272x256, .f32⟩
  | .local _ .vmem, ⟨2, _⟩ => ⟨S256x16, .f32⟩
  | .local _ .vmem, ⟨3, _⟩ => ⟨S6272x16, .f32⟩
  | .local _ .vmem, ⟨4, _⟩ => ⟨S6272x16, .f32⟩
  | _, _ => ⟨S32x56x56x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6272x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6272x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x1x256x160_S256x10x16 : S1x1x256x160.ShapeCasts S256x10x16
  reducesTo_S256x10x16_S256x16_d1 : S256x10x16.ReducesTo [1] S256x16
  h_S_ : 0 < S_.numel
  shapeCasts_S32x56x56x256_S100352x256 : S32x56x56x256.ShapeCasts S100352x256
  inb_S6272x256_S6272x256_0_0 : ∀ a, (![0, 0] : Fin 2 → Nat) a + S6272x256.size a ≤ S6272x256.size a
  h_S6272x256 : 0 < S6272x256.numel
  shapeCasts_S6272x256_S6272x256 : S6272x256.ShapeCasts S6272x256
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S6272x16_S6272x16_0_0 : ∀ a, (![0, 0] : Fin 2 → Nat) a + S6272x16.size a ≤ S6272x16.size a
  h_S6272x16 : 0 < S6272x16.numel
  shapeCasts_S100352x16_S32x56x56x16 : S100352x16.ShapeCasts S32x56x56x16
  dot_S6272x256_S256x16_S6272x16_1_0_0_1_n_n_wf : DotDims.WF S6272x256 S256x16 S6272x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6272x256.size a ≤ S100352x256.size a
  hwx0_0 : ∀ i : grid0.Coords, EltTy.bits .f32 = 32 ∨ (Rect.block (s := S100352x256) S6272x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6272x16.size a ≤ S100352x16.size a
  hwx0_2 : ∀ i : grid0.Coords, EltTy.bits .f32 = 32 ∨ (Rect.block (s := S100352x16) S6272x16.size (cc0_transform_2 i) (hinb0_2 i)).WholeWords (EltTy.packing .f32)

variable [Facts₀]

def dot_S6272x256_S256x16_S6272x16_1_0_0_1_n_n : DotDims S6272x256 S256x16 S6272x16 where
  lhsContracting := [1]
  rhsContracting := [0]
  lhsNonContracting := [0]
  rhsNonContracting := [1]
  lhsBatch := []
  rhsBatch := []
  wf := dot_S6272x256_S256x16_S6272x16_1_0_0_1_n_n_wf

abbrev win0_0 : Pipeline.Window sig grid0 :=
  Pipeline.Window.ofSpec (Memref.whole main_v2) S6272x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S6272x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x56x56x256 : Shape := ⟨4, ![32, 56, 56, 256]⟩
abbrev S1x1x256x160 : Shape := ⟨4, ![1, 1, 256, 160]⟩
abbrev S256x10x16 : Shape := ⟨3, ![256, 10, 16]⟩
abbrev S_ : Shape := ⟨0, ![]⟩
abbrev S256x16 : Shape := ⟨2, ![256, 16]⟩
abbrev S32x56x56x16 : Shape := ⟨4, ![32, 56, 56, 16]⟩

abbrev nBuf : Space → Nat
  | .hbm => 6
  | .vmem => 0
  | .smem => 0
  | _ => 0

abbrev bufTy : (tb : Table) → Fin (tcTables nBuf tb) → BufTy
  | .hbm, ⟨0, _⟩ => ⟨S32x56x56x256, .f32⟩
  | .hbm, ⟨1, _⟩ => ⟨S1x1x256x160, .f32⟩
  | .hbm, ⟨2, _⟩ => ⟨S256x10x16, .f32⟩
  | .hbm, ⟨3, _⟩ => ⟨S_, .f32⟩
  | .hbm, ⟨4, _⟩ => ⟨S256x16, .f32⟩
  | .hbm, ⟨5, _⟩ => ⟨S32x56x56x16, .f32⟩
  | _, _ => ⟨S32x56x56x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  shapeCasts_S1x1x256x160_S256x10x16 : S1x1x256x160.ShapeCasts S256x10x16
  reducesTo_S256x10x16_S256x16_d1 : S256x10x16.ReducesTo [1] S256x16
  h_S_ : 0 < S_.numel
  dot_S32x56x56x256_S256x16_S32x56x56x16_3_0_012_1_n_n_wf : DotDims.WF S32x56x56x256 S256x16 S32x56x56x16 [3] [0] [0, 1, 2] [1] [] []

variable [Facts₀]

def dot_S32x56x56x256_S256x16_S32x56x56x16_3_0_012_1_n_n : DotDims S32x56x56x256 S256x16 S32x56x56x16 where
  lhsContracting := [3]
  rhsContracting := [0]
  lhsNonContracting := [0, 1, 2]
  rhsNonContracting := [1]
  lhsBatch := []
  rhsBatch := []
  wf := dot_S32x56x56x256_S256x16_S32x56x56x16_3_0_012_1_n_n_wf

class Facts : Prop extends Facts₀ where

variable [Facts]
-- ==== Proof.LibRowMajor.lean ====
/-
  Arrays read through their row-major positions.

  An array over a shape is "represented" by a function f on the natural numbers when its entry at every index is f
  at the index's row-major position.  A reshape keeps the row-major position of every entry, so it keeps the
  representing function; two arrays of one shape with one representing function are equal.  For ranks one to four
  the position of an index built from coordinates is spelt as the usual nested sum of products.
-/
import Idealize.ShloMosaic.PureOps.Ideal.Laws
import Idealize.ShloMosaic.Lib.ValueIdx
import Idealize.ShloMosaic.Lib.Pipeline.Value

noncomputable section

open scoped BigOperators

namespace Cert.Lib.RowMajor

open Idealize.ShloMosaic Idealize.ShloMosaic.ValueIdx

variable {α : Type}

/-- The array `A` at an index is `f` at the index's row-major position. -/
def Rep {S : Shape} (A : S.Idx → α) (f : ℕ → α) : Prop := ∀ i : S.Idx, A i = f (S.rowMajor i).val

/-- The entries of an array listed by row-major position (zero past the last one). -/
def flatOf {S : Shape} (A : S.Idx → EReal) (n : ℕ) : EReal :=
  if h : n < S.numel then A (S.rowMajor.symm ⟨n, h⟩) else 0

theorem rep_flatOf {S : Shape} (A : S.Idx → EReal) : Rep A (flatOf A) := fun i => by
  unfold flatOf
  rw [dif_pos (S.rowMajor i).isLt]
  exact congrArg A ((S.rowMajor.symm_apply_apply i).symm.trans (congrArg S.rowMajor.symm (Fin.ext rfl)))

theorem rep_ext {S : Shape} {A B : S.Idx → α} {f : ℕ → α} (hA : Rep A f) (hB : Rep B f) : A = B :=
  funext fun i => (hA i).trans (hB i).symm

/-- A reshape keeps every entry's row-major position. -/
theorem rep_shapeCast {S T : Shape} {A : S.Idx → α} {f : ℕ → α} (hA : Rep A f) (h : S.ShapeCasts T) :
    Rep (shapeCast T A h) f := fun j => by
  unfold Idealize.ShloMosaic.shapeCast
  rw [hA (Shape.reshapeEquiv h j), Shape.rowMajor_reshapeEquiv h j]

theorem rowMajor_ix1 {a : ℕ} (r : Fin a) : ((⟨1, ![a]⟩ : Shape).rowMajor (ix1 r)).val = r.val := by
  rw [Shape.rowMajor_val_one]; rfl

theorem rowMajor_ix2 {a b : ℕ} (r : Fin a) (c : Fin b) :
    ((⟨2, ![a, b]⟩ : Shape).rowMajor (ix2 r c)).val = r.val * b + c.val := by
  rw [Shape.rowMajor_val_two]; rfl

theorem rowMajor_ix3 {a b c : ℕ} (x : Fin a) (y : Fin b) (z : Fin c) :
    ((⟨3, ![a, b, c]⟩ : Shape).rowMajor (ix3 x y z)).val = (x.val * b + y.val) * c + z.val := by
  rw [Shape.rowMajor_val_three]; rfl

theorem rowMajor_ix4 {a b c d : ℕ} (x : Fin a) (y : Fin b) (z : Fin c) (w : Fin d) :
    ((⟨4, ![a, b, c, d]⟩ : Shape).rowMajor (ix4 x y z w)).val = ((x.val * b + y.val) * c + z.val) * d + w.val := by
  rw [Shape.rowMajor_val_four]; rfl

theorem rep1_iff {a : ℕ} {A : (⟨1, ![a]⟩ : Shape).Idx → α} {f : ℕ → α} :
    Rep A f ↔ ∀ r : Fin a, A (ix1 r) = f r.val :=
  ⟨fun h r => (h (ix1 r)).trans (congrArg f (rowMajor_ix1 r)),
   fun h i => by
    obtain ⟨r, rfl⟩ : ∃ r : Fin a, i = ix1 r := ⟨i 0, eq_ix1 i⟩
    exact (h r).trans (congrArg f (rowMajor_ix1 r).symm)⟩

theorem rep2_iff {a b : ℕ} {A : (⟨2, ![a, b]⟩ : Shape).Idx → α} {f : ℕ → α} :
    Rep A f ↔ ∀ (r : Fin a) (c : Fin b), A (ix2 r c) = f (r.val * b + c.val) :=
  ⟨fun h r c => (h (ix2 r c)).trans (congrArg f (rowMajor_ix2 r c)),
   fun h i => by
    obtain ⟨r, c, rfl⟩ : ∃ (r : Fin a) (c : Fin b), i = ix2 r c := ⟨i 0, i 1, eq_ix2 i⟩
    exact (h r c).trans (congrArg f (rowMajor_ix2 r c).symm)⟩

theorem rep3_iff {a b c : ℕ} {A : (⟨3, ![a, b, c]⟩ : Shape).Idx → α} {f : ℕ → α} :
    Rep A f ↔ ∀ (x : Fin a) (y : Fin b) (z : Fin c), A (ix3 x y z) = f ((x.val * b + y.val) * c + z.val) :=
  ⟨fun h x y z => (h (ix3 x y z)).trans (congrArg f (rowMajor_ix3 x y z)),
   fun h i => by
    obtain ⟨x, y, z, rfl⟩ : ∃ (x : Fin a) (y : Fin b) (z : Fin c), i = ix3 x y z := ⟨i 0, i 1, i 2, eq_ix3 i⟩
    exact (h x y z).trans (congrArg f (rowMajor_ix3 x y z).symm)⟩

theorem rep4_iff {a b c d : ℕ} {A : (⟨4, ![a, b, c, d]⟩ : Shape).Idx → α} {f : ℕ → α} :
    Rep A f ↔ ∀ (x : Fin a) (y : Fin b) (z : Fin c) (w : Fin d),
      A (ix4 x y z w) = f (((x.val * b + y.val) * c + z.val) * d + w.val) :=
  ⟨fun h x y z w => (h (ix4 x y z w)).trans (congrArg f (rowMajor_ix4 x y z w)),
   fun h i => by
    obtain ⟨x, y, z, w, rfl⟩ : ∃ (x : Fin a) (y : Fin b) (z : Fin c) (w : Fin d), i = ix4 x y z w :=
      ⟨i 0, i 1, i 2, i 3, eq_ix4 i⟩
    exact (h x y z w).trans (congrArg f (rowMajor_ix4 x y z w).symm)⟩

end Cert.Lib.RowMajor

end
-- ==== Proof.Projection.lean ====
/-
  The capsule projection as one function of its two arguments, and the law that joins its two arrangements.

  x holds one feature vector of 256 numbers at each of 32 · 56 · 56 positions (b, h, w); W is a 256 × 16 matrix of
  weights.  The projection sends position (b, h, w) and output coordinate d to the sum over f of x(b, h, w, f) · W(f, d)
  (posTimes).  Listing the positions in row-major order turns x into a matrix of 100352 rows, row
  r = (b · 56 + h) · 56 + w, and the projection into the rows-times-matrix product (rowsTimes); reading that product's
  rows back as positions gives the projection again (reshape_rowsTimes).  Every entry of either side is the same sum of
  the same 256 products in the same order, so nothing is asked of the entries: they may be any extended reals.
-/
import Idealize.ShloMosaic.PureOps.Ideal.Laws
import Idealize.ShloMosaic.Lib.ValueIdx
import Idealize.ShloMosaic.Lib.Pipeline.Value
import proofs.«127862_j34067680592338_1_alg».proof.Proof.LibRowMajor

noncomputable section

open scoped BigOperators

namespace Cert.Capsule

open Idealize.ShloMosaic Idealize.ShloMosaic.ValueIdx Cert.Lib.RowMajor

/-- Rows times a matrix: entry (r, c) is the sum over k of X(r, k) · W(k, c). -/
def rowsTimes {M K N : Nat} (X : (⟨2, ![M, K]⟩ : Shape).Idx → EReal) (W : (⟨2, ![K, N]⟩ : Shape).Idx → EReal) :
    (⟨2, ![M, N]⟩ : Shape).Idx → EReal :=
  fun j => ∑ k : Fin K, X (ix2 (j 0) k) * W (ix2 k (j 1))

theorem rowsTimes_apply {M K N : Nat} (X : (⟨2, ![M, K]⟩ : Shape).Idx → EReal) (W : (⟨2, ![K, N]⟩ : Shape).Idx → EReal)
    (r : Fin M) (c : Fin N) : rowsTimes X W (ix2 r c) = ∑ k : Fin K, X (ix2 r k) * W (ix2 k c) := rfl

/-- The same at any index whose two coordinates are r and c. -/
theorem rowsTimes_at {M K N : Nat} (X : (⟨2, ![M, K]⟩ : Shape).Idx → EReal) (W : (⟨2, ![K, N]⟩ : Shape).Idx → EReal)
    (j : (⟨2, ![M, N]⟩ : Shape).Idx) (r : Fin M) (c : Fin N) (h0 : (j 0).val = r.val) (h1 : (j 1).val = c.val) :
    rowsTimes X W j = ∑ k : Fin K, X (ix2 r k) * W (ix2 k c) := by
  have e : j = ix2 r c := funext fun a => Fin.ext (by
    match a with
    | ⟨0, _⟩ => exact h0
    | ⟨1, _⟩ => exact h1)
  rw [e, rowsTimes_apply]

/-- The projection position by position: entry (b, h, w, d) is the sum over f of X(b, h, w, f) · W(f, d). -/
def posTimes {A B C K N : Nat} (X : (⟨4, ![A, B, C, K]⟩ : Shape).Idx → EReal) (W : (⟨2, ![K, N]⟩ : Shape).Idx → EReal) :
    (⟨4, ![A, B, C, N]⟩ : Shape).Idx → EReal :=
  fun i => ∑ k : Fin K, X (ix4 (i 0) (i 1) (i 2) k) * W (ix2 k (i 3))

theorem posTimes_apply {A B C K N : Nat} (X : (⟨4, ![A, B, C, K]⟩ : Shape).Idx → EReal)
    (W : (⟨2, ![K, N]⟩ : Shape).Idx → EReal) (b : Fin A) (h : Fin B) (w : Fin C) (d : Fin N) :
    posTimes X W (ix4 b h w d) = ∑ k : Fin K, X (ix4 b h w k) * W (ix2 k d) := rfl

/-- Positions listed as rows, multiplied by the weights, and the rows read back as positions: the projection.
    Row r of the flattened x is position (r / 3136, r / 56 mod 56, r mod 56), whose entries sit at the same row-major
    places r · 256 + f in both arrays; entry (r, d) of the product sits at place r · 16 + d, where the projection's
    entry (b, h, w, d) sits too. -/
theorem reshape_rowsTimes (X : (⟨4, ![32, 56, 56, 256]⟩ : Shape).Idx → EReal) (W : (⟨2, ![256, 16]⟩ : Shape).Idx → EReal)
    (h₁ : (⟨4, ![32, 56, 56, 256]⟩ : Shape).ShapeCasts ⟨2, ![100352, 256]⟩)
    (h₂ : (⟨2, ![100352, 16]⟩ : Shape).ShapeCasts ⟨4, ![32, 56, 56, 16]⟩) :
    shapeCast ⟨4, ![32, 56, 56, 16]⟩ (rowsTimes (shapeCast ⟨2, ![100352, 256]⟩ X h₁) W) h₂ = posTimes X W := by
  have hX4 := rep4_iff.mp (rep_flatOf X)
  have hX2 := rep2_iff.mp (rep_shapeCast (rep_flatOf X) h₁)
  have hP := rep4_iff.mp (rep_flatOf (posTimes X W))
  refine rep_ext (rep_shapeCast (rep2_iff.mpr fun r c => ?_) h₂) (rep_flatOf (posTimes X W))
  have hr : r.val < 100352 := r.isLt
  obtain ⟨b, h, w, e⟩ : ∃ (b : Fin 32) (h : Fin 56) (w : Fin 56), r.val = (b.val * 56 + h.val) * 56 + w.val :=
    ⟨⟨r.val / 3136, by omega⟩, ⟨r.val / 56 % 56, by omega⟩, ⟨r.val % 56, by omega⟩, by
      show r.val = (r.val / 3136 * 56 + r.val / 56 % 56) * 56 + r.val % 56
      omega⟩
  rw [e, ← hP b h w c, rowsTimes_apply, posTimes_apply]
  refine Finset.sum_congr rfl fun k _ => ?_
  rw [hX2 r k, hX4 b h w k, e]

end Cert.Capsule

end
-- ==== Proof.ReferenceProjection.lean ====
/-
  What the reference computes, as the projection.

  The reference first adds the ten capsules' weight matrices (the weights reshaped to 256 × 10 × 16 and summed over the
  capsule axis, starting from zero) and then contracts x's feature axis with the sum's first axis.  At output index
  (b, h, w, d) that contraction is the sum over f of x(b, h, w, f) · Wsum(f, d): the projection of x by the summed
  weights.  The summed weights are carried as one term; nothing here looks inside the sum over capsules.
-/
import proofs.«127862_j34067680592338_1_alg».proof.Proof.Gen.ReferenceIdeal.Read
import proofs.«127862_j34067680592338_1_alg».proof.Proof.Projection

noncomputable section

open scoped BigOperators

namespace Cert.ReferenceIdeal.RefValue

open Cert.ReferenceIdeal Cert.ReferenceIdeal.Read Idealize.ShloMosaic Idealize.ShloMosaic.ValueIdx Cert.Capsule

/-- The reference's result is the projection of its first argument by the capsule sum of its second. -/
theorem result_eq (x0 : (⟨S32x56x56x256, .f32⟩ : BufTy).Contents (Elt Ideal))
    (x1 : (⟨S1x1x256x160, .f32⟩ : BufTy).Contents (Elt Ideal)) :
    val_main_v2 (F := Ideal) x0 x1 = posTimes x0 (val_main_v1 (F := Ideal) x1) := by
  funext i
  rw [val_main_v2_apply]
  refine Finset.sum_congr rfl fun k _ => ?_
  have el : lidx_main_v2 i k = ix4 (i 0) (i 1) (i 2) k := funext fun a => Fin.ext (by
    match a with
    | ⟨0, _⟩ => rfl
    | ⟨1, _⟩ => rfl
    | ⟨2, _⟩ => rfl
    | ⟨3, _⟩ => rfl)
  have er : ridx_main_v2 i k = ix2 k (i 3) := funext fun a => Fin.ext (by
    match a with
    | ⟨0, _⟩ => rfl
    | ⟨1, _⟩ => rfl)
  rw [el, er]
  rfl

end Cert.ReferenceIdeal.RefValue

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.BlockProduct.lean ====
/-
  What one grid point's body stores, entry by entry.

  The body loads a block of 6272 rows of the flattened x and the whole 256 × 16 weight matrix, narrows both to the
  matrix unit's input format, and multiplies them into a zero accumulator.  On extended reals the narrowing is the
  identity and the zero accumulator adds nothing, so entry (r, c) of what is stored is the sum over the 256 features k of
  block(r, k) · weights(k, c).
-/
import proofs.«127862_j34067680592338_1_alg».proof.Proof.Gen.KernelIdeal.Skeleton
import proofs.«127862_j34067680592338_1_alg».proof.Proof.LibPlainDot
import Idealize.ShloMosaic.Lib.Pipeline.Value

noncomputable section

open scoped BigOperators

namespace Cert.KernelIdeal.BlockProduct

open Cert.KernelIdeal Cert.KernelIdeal.Gen Idealize.ShloMosaic Idealize.ShloMosaic.ValueIdx Cert.Lib.PlainDot

/-! The body's dimension numbers contract the block's second axis with the weights' first and have no batch axis:
    the operand indices at output (r, c) and contraction index k are (r, k) and (k, c). -/

theorem lhs_row (i : S6272x16.Idx) (q : dot_S6272x256_S256x16_S6272x16_1_0_0_1_n_n.contr.Idx) :
    (dot_S6272x256_S256x16_S6272x16_1_0_0_1_n_n.lhsIdx i q 0).val = (i 0).val := by
  unfold DotDims.lhsIdx
  rw [dif_neg (show ¬(0 : Fin S6272x256.rank) ∈ dot_S6272x256_S256x16_S6272x16_1_0_0_1_n_n.lhsBatch by decide),
    dif_pos (show (0 : Fin S6272x256.rank) ∈ dot_S6272x256_S256x16_S6272x16_1_0_0_1_n_n.lhsNonContracting by decide)]
  rfl

theorem lhs_feature (i : S6272x16.Idx) (q : dot_S6272x256_S256x16_S6272x16_1_0_0_1_n_n.contr.Idx) :
    (dot_S6272x256_S256x16_S6272x16_1_0_0_1_n_n.lhsIdx i q 1).val = (q ⟨0, by decide⟩).val :=
  dot_S6272x256_S256x16_S6272x16_1_0_0_1_n_n.lhsIdx_val_of_single rfl i q

theorem rhs_feature (i : S6272x16.Idx) (q : dot_S6272x256_S256x16_S6272x16_1_0_0_1_n_n.contr.Idx) :
    (dot_S6272x256_S256x16_S6272x16_1_0_0_1_n_n.rhsIdx i q 0).val = (q ⟨0, by decide⟩).val :=
  dot_S6272x256_S256x16_S6272x16_1_0_0_1_n_n.rhsIdx_val_of_single rfl i q

theorem rhs_col (i : S6272x16.Idx) (q : dot_S6272x256_S256x16_S6272x16_1_0_0_1_n_n.contr.Idx) :
    (dot_S6272x256_S256x16_S6272x16_1_0_0_1_n_n.rhsIdx i q 1).val = (i 1).val := by
  unfold DotDims.rhsIdx
  rw [dif_neg (show ¬(1 : Fin S256x16.rank) ∈ dot_S6272x256_S256x16_S6272x16_1_0_0_1_n_n.rhsBatch by decide),
    dif_pos (show (1 : Fin S256x16.rank) ∈ dot_S6272x256_S256x16_S6272x16_1_0_0_1_n_n.rhsNonContracting by decide)]
  rfl

/-- Entry (r, c) of what the body stores: the sum over k of block(r, k) · weights(k, c). -/
theorem stored_apply (xb : Vec Ideal S6272x256 .f32) (wt : Vec Ideal S256x16 .f32) (r : Fin 6272) (c : Fin 16) :
    k0_pay1 (F := Ideal) xb wt (ix2 r c) = ∑ k : Fin 256, xb (ix2 r k) * wt (ix2 k c) := by
  have e0 : shapeCast S6272x256 xb shapeCasts_S6272x256_S6272x256 = xb := shapeCast_self xb _
  have e1 : shapeCast S256x16 wt shapeCasts_S256x16_S256x16 = wt := shapeCast_self wt _
  have hm : k0_pay1 (F := Ideal) xb wt
      = Host.dotGeneral dot_S6272x256_S256x16_S6272x16_1_0_0_1_n_n none
          (shapeCast S6272x256 xb shapeCasts_S6272x256_S6272x256) (shapeCast S256x16 wt shapeCasts_S256x16_S256x16) :=
    matmul_truncf_zero_eq_dotGeneral dot_S6272x256_S256x16_S6272x16_1_0_0_1_n_n none _ _ bitsLt_bf16_f32 bitsLt_bf16_f32
  rw [hm, e0, e1]
  exact dotGeneral_apply_ix2 dot_S6272x256_S256x16_S6272x16_1_0_0_1_n_n rfl rfl lhs_row lhs_feature rhs_feature rhs_col
    none xb wt r c

end Cert.KernelIdeal.BlockProduct

end
-- ==== Proof.RowBlocks.lean ====
/-
  The region's output array, as one function of the two arrays the region finds.

  Before the region the host has flattened x to a matrix of 100352 rows (one per position, row-major) and added the ten
  capsules' weight matrices into one 256 × 16 matrix.  The grid has 16 points; point t takes rows 6272·t … 6272·t + 6271
  of the flattened x and the whole weight matrix, and writes rows 6272·t … 6272·t + 6271 of the output.  Entry (r, c) of
  what it writes is the sum over k of its block's (r, k) · weights(k, c), which is entry (6272·t + r, c) of the
  rows-times-weights product of the two whole arrays.  The 16 blocks of rows tile the output (row R lies in block
  R / 6272), so after the last point the output array is that product.
-/
import proofs.«127862_j34067680592338_1_alg».proof.Proof.Gen.KernelIdeal.Frame
import proofs.«127862_j34067680592338_1_alg».proof.Proof.Projection
import proofs.«127862_j34067680592338_1_alg».proof.Proof.BlockProduct
import Idealize.ShloMosaic.Lib.Pipeline.Value
import Idealize.ShloMosaic.Lib.StableHlo.Run
import Idealize.ShloMosaic.Lib.Tactic

noncomputable section

open scoped BigOperators

namespace Cert.KernelIdeal.RowBlocks

open Cert.KernelIdeal Cert.KernelIdeal.Gen Idealize.ShloMosaic Idealize.ShloMosaic.TcCoe Idealize.SL.Sem
open Idealize.ShloMosaic.ValueIdx Cert.Capsule
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The two arrays the region finds -/

/-- The flattened x: the first argument's entries in row-major order, as 100352 rows of 256. -/
theorem entry_rows (c : Dev nD) :
    (V m c main_v2 : S100352x256.Idx → EReal)
      = shapeCast S100352x256 (m ((c : Thread nD τ).loc main_arg0)) shapeCasts_S32x56x56x256_S100352x256 := by
  show StableHlo.after hostOps0 (fun b => m (c, b)) (Proc.devRef .tc main_v2) = _
  after_results
  rfl

/-- The summed weights: the second argument reshaped to 256 × 10 × 16 and added over the capsule axis from zero. -/
theorem entry_weights (c : Dev nD) :
    (V m c main_v1 : S256x16.Idx → EReal)
      = Host.reduceAdd (F := Ideal) (shapeCast S256x10x16 (m ((c : Thread nD τ).loc main_arg1)) shapeCasts_S1x1x256x160_S256x10x16)
          (constant (F := Ideal) S_ .f32 0x00000000#32) reducesTo_S256x10x16_S256x16_d1 h_S_ := by
  show StableHlo.after hostOps0 (fun b => m (c, b)) (Proc.devRef .tc main_v1) = _
  after_results
  rfl

/-! ## Where each window's block sits -/

/-- At point t the rows window and the output window are at block row t, the weights window at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (r, k) of the rows window's block at point t is entry (6272·t + r, k) of the flattened x. -/
theorem rows_block (c : Dev nD) (t : Fin cfg0.N) (r : Fin 6272) (k : Fin 256) (R : Fin 100352)
    (hR : R.val = t.val * 6272 + r.val) :
    iblk m c 0 t (ix2 r k) = (V m c main_v2 : S100352x256.Idx → EReal) (ix2 R k) := by
  obtain ⟨e00, e01, -⟩ := idx_facts t
  show V m c main_v2 (((cfg0.win 0).blk t).view.emb (ix2 r k)) = V m c main_v2 (ix2 R k)
  refine congrArg (V m c main_v2) (funext fun a => Fin.ext ?_)
  match a with
  | ⟨0, _⟩ => show win0_0.index t (0 : Fin 2) * 6272 + 1 * r.val = R.val; omega
  | ⟨1, _⟩ => show win0_0.index t (1 : Fin 2) * 256 + 1 * k.val = k.val; omega

/-- The weights window's block at every point is the whole summed-weights matrix. -/
theorem weights_block (c : Dev nD) (t : Fin cfg0.N) (k : Fin 256) (q : Fin 16) :
    iblk m c 1 t (ix2 k q) = (V m c main_v1 : S256x16.Idx → EReal) (ix2 k q) := by
  obtain ⟨-, -, e10, e11, -⟩ := idx_facts t
  show V m c main_v1 (((cfg0.win 1).blk t).view.emb (ix2 k q)) = V m c main_v1 (ix2 k q)
  refine congrArg (V m c main_v1) (funext fun a => Fin.ext ?_)
  match a with
  | ⟨0, _⟩ => show win0_1.index t (0 : Fin 2) * 256 + 1 * k.val = k.val; omega
  | ⟨1, _⟩ => show win0_1.index t (1 : Fin 2) * 16 + 1 * q.val = q.val; omega

/-! ## What a point writes back, and the whole array -/

/-- Point t writes back block t of the rows-times-weights product of the two arrays the region finds. -/
theorem flushed_eq (c : Dev nD) (t : Fin cfg0.N) :
    (dats m 0 c).flushed 2 t = ((cfg0.win 2).blk t).view.read (Elt Ideal)
      (rowsTimes (V m c main_v2 : S100352x256.Idx → EReal) (V m c main_v1 : S256x16.Idx → EReal)) := by
  show (cfg0.win 2).cut (grid0.coords t) ((dats m 0 c).after 2 t) = _
  rw [after0_2]
  unfold out0_2
  rw [View.canon_unit_zero hz]
  simp only [View.ld_unit_zero (S := S6272x256) hz, View.ld_unit_zero (S := S256x16) hz]
  obtain ⟨-, -, -, -, e20, e21⟩ := idx_facts t
  have hN : cfg0.N = 16 := N_0
  have ht : t.val < 16 := hN ▸ t.isLt
  funext j
  obtain ⟨r, q, rfl⟩ : ∃ (r : Fin 6272) (q : Fin 16), j = ix2 r q := ⟨j 0, j 1, eq_ix2 j⟩
  show k0_pay1 (F := Ideal) (iblk m c 0 t) (iblk m c 1 t) (ix2 r q)
    = rowsTimes (V m c main_v2 : S100352x256.Idx → EReal) (V m c main_v1 : S256x16.Idx → EReal)
        (((cfg0.win 2).blk t).view.emb (ix2 r q))
  have hr : r.val < 6272 := r.isLt
  refine (BlockProduct.stored_apply (iblk m c 0 t) (iblk m c 1 t) r q).trans ?_
  refine ((rowsTimes_at (V m c main_v2 : S100352x256.Idx → EReal) (V m c main_v1 : S256x16.Idx → EReal)
    (((cfg0.win 2).blk t).view.emb (ix2 r q)) ⟨t.val * 6272 + r.val, by omega⟩ q ?_ ?_).trans ?_).symm
  · show win0_2.index t (0 : Fin 2) * 6272 + 1 * r.val = t.val * 6272 + r.val; omega
  · show win0_2.index t (1 : Fin 2) * 16 + 1 * q.val = q.val; omega
  · refine Finset.sum_congr rfl fun k _ => ?_
    rw [rows_block m c t r k ⟨t.val * 6272 + r.val, by omega⟩ rfl, weights_block m c t k q]

/-- An index of the output array is in point t's block iff each coordinate is in the block's range on its axis. -/
theorem mem_blk (t : Fin cfg0.N) (i : S100352x16.Idx) :
    i ∈ ((cfg0.win 2).blk t).view.set ↔ ∀ a : Fin 2, win0_2.index t a * S6272x16.size a ≤ (i a).val
      ∧ (i a).val < win0_2.index t a * S6272x16.size a + S6272x16.size a := by
  show i ∈ ((View.whole main_v3).slice (win0_2.rect t)).set ↔ _
  rw [View.set_slice_whole, Rect.mem_set_unit]
  exact Iff.rfl

/-- After the last point the output array is the rows-times-weights product: row R is written by point R / 6272. -/
theorem final_rows (c : Dev nD) :
    (dats m 0 c).arrAt 2 cfg0.N
      = rowsTimes (V m c main_v2 : S100352x256.Idx → EReal) (V m c main_v1 : S256x16.Idx → EReal) :=
  (dats m 0 c).arrAt_eq_of_cover 2 _ (fun t _ => flushed_eq m c t) fun i => by
    have hi0 : (i 0).val < 100352 := (i 0).isLt
    have hi1 : (i 1).val < 16 := (i 1).isLt
    have hN : cfg0.N = 16 := N_0
    obtain ⟨t, ht⟩ : ∃ t : Fin cfg0.N, t.val = (i 0).val / 6272 := ⟨⟨(i 0).val / 6272, by rw [hN]; omega⟩, rfl⟩
    obtain ⟨-, -, -, -, e20, e21⟩ := idx_facts t
    refine ⟨t, flush0_2 t, ?_⟩
    rw [mem_blk]
    intro a
    match a with
    | ⟨0, _⟩ =>
      show win0_2.index t (0 : Fin 2) * 6272 ≤ (i 0).val ∧ (i 0).val < win0_2.index t (0 : Fin 2) * 6272 + 6272
      omega
    | ⟨1, _⟩ =>
      show win0_2.index t (1 : Fin 2) * 16 ≤ (i 1).val ∧ (i 1).val < win0_2.index t (1 : Fin 2) * 16 + 16
      omega

end Cert.KernelIdeal.RowBlocks

end
-- ==== Proof.KernelProjection.lean ====
/-
  What the kernel's program leaves in its result, as the projection of its arguments.

  After the region the host reads the output's 100352 rows back as positions (a reshape to 32 × 56 × 56 × 16).  The
  output array is the rows-times-weights product of the flattened x and the summed weights, so by the law that joins the
  two arrangements the result is the projection of x by the summed weights: entry (b, h, w, d) is the sum over f of
  x(b, h, w, f) · Wsum(f, d).  The two arguments end as they were launched.
-/
import proofs.«127862_j34067680592338_1_alg».proof.Proof.RowBlocks
import Idealize.ShloMosaic.Lib.Pipeline.FrameSuffix

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Cert.Capsule Cert.KernelIdeal.RowBlocks
open Idealize.ShloMosaic.Pipeline (Dat)

variable (m : (ℓ : Loc nD τ sig) → Buf (Elt Ideal) ℓ) (ρ : Dev nD → PrngReg)

/-- The ten capsules' weight matrices added: the weights reshaped to 256 × 10 × 16 and summed over the capsule axis,
    starting from zero. -/
def capsuleSum (w : (⟨S1x1x256x160, .f32⟩ : BufTy).Contents (Elt Ideal)) : S256x16.Idx → EReal :=
  Host.reduceAdd (F := Ideal) (shapeCast S256x10x16 w shapeCasts_S1x1x256x160_S256x10x16)
    (constant (F := Ideal) S_ .f32 0x00000000#32) reducesTo_S256x10x16_S256x16_d1 h_S_

/-- The host's last line reads the region's output array back as positions. -/
theorem tail_eq (c : Dev nD) :
    Pipeline.afterTail₀ cfgs (dats m) 0 (V0 m) [hostOps1] c main_v4
      = posTimes (m ((c : Thread nD τ).loc main_arg0)) (capsuleSum (m ((c : Thread nD τ).loc main_arg1))) := by
  have hW : Pipeline.withArrays (cfgs 0).spec c (V0 m c) (fun w => (dats m 0 c).arrAt w (cfgs 0).N) (Proc.tc.devRef main_v3)
      = rowsTimes (V m c main_v2 : S100352x256.Idx → EReal) (V m c main_v1 : S256x16.Idx → EReal) :=
    (Pipeline.withArrays_arr spec0 launch0.win.arr_inj c _ _ 2).trans (final_rows m c)
  unfold Pipeline.afterTail₀
  show StableHlo.after hostOps1 _ (Proc.devRef .tc main_v4) = _
  after_results
  rw [hW, entry_rows m c, entry_weights m c]
  exact reshape_rowsTimes (m ((c : Thread nD τ).loc main_arg0)) (capsuleSum (m ((c : Thread nD τ).loc main_arg1)))
    shapeCasts_S32x56x56x256_S100352x256 shapeCasts_S100352x16_S32x56x56x16

/-- Every weakly fair execution of the kernel's program terminates with its result at the projection of the first
    argument by the capsule sum of the second, and both arguments as launched. -/
theorem run : θ_run defs (onTc (τ := τ) (main (F := Ideal))) ⟨m, fun _ => 0, ρ⟩ fun r => ∀ c : Dev nD,
      r.2.mem ((c : Thread nD τ).loc main_v4)
        = posTimes (m ((c : Thread nD τ).loc main_arg0)) (capsuleSum (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v4 (Pipeline.mem_restRefs_of main_v4 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KernelValue

end
-- ==== Proof.lean ====
/-
  A capsule layer's projection, computed two ways, is one function of its arguments on the extended reals.

  x holds a vector of 256 features at each of 32 · 56 · 56 positions; the weights hold, for each feature, ten capsules of
  16 numbers.  Both programs first add the ten capsules' weight matrices into one 256 × 16 matrix Wsum (the weights
  reshaped to 256 × 10 × 16 and summed over the capsule axis, starting from zero) — the same term on both sides, never
  opened here.

  The reference contracts x's feature axis with Wsum's first axis: entry (b, h, w, d) of its result is the sum over f of
  x(b, h, w, f) · Wsum(f, d).

  The kernel lists the positions in row-major order, making x a matrix of 100352 rows, and runs a grid of 16 points;
  point t multiplies rows 6272·t … 6272·t + 6271 by Wsum on the matrix unit, from operands narrowed to the unit's input
  format into a zero accumulator, and writes those rows of the output.  On extended reals the narrowing is the identity
  and the zero adds nothing, so each stored entry is the plain sum over the 256 features; the 16 blocks tile the output,
  which is therefore the rows-times-Wsum product; the host then reads the 100352 rows back as positions.  Row
  r = (b · 56 + h) · 56 + w of the flattened x is position (b, h, w), and entries keep their row-major places under both
  reshapes, so the result is again the sum over f of x(b, h, w, f) · Wsum(f, d).

  Every entry on either side is the same sum of the same 256 products in the same order: no law of arithmetic beyond
  that is used, and the entries may be any extended reals, so the precondition is never opened.  No operation of the
  kernel is replaced when it is read on extended reals: that reading is the kernel's own text.
-/
import proofs.«127862_j34067680592338_1_alg».proof.Defs
import proofs.«127862_j34067680592338_1_alg».proof.Proof.Gen.Kernel
import proofs.«127862_j34067680592338_1_alg».proof.Proof.Gen.Kernel.Skeleton
import proofs.«127862_j34067680592338_1_alg».proof.Proof.Gen.Kernel.Launch
import proofs.«127862_j34067680592338_1_alg».proof.Proof.Gen.Kernel.Points
import proofs.«127862_j34067680592338_1_alg».proof.Proof.Gen.Kernel.Frame
import proofs.«127862_j34067680592338_1_alg».proof.Proof.Gen.KernelIdeal
import proofs.«127862_j34067680592338_1_alg».proof.Proof.Gen.KernelIdeal.Skeleton
import proofs.«127862_j34067680592338_1_alg».proof.Proof.Gen.KernelIdeal.Launch
import proofs.«127862_j34067680592338_1_alg».proof.Proof.Gen.KernelIdeal.Points
import proofs.«127862_j34067680592338_1_alg».proof.Proof.Gen.KernelIdeal.Frame
import proofs.«127862_j34067680592338_1_alg».proof.Proof.Gen.ReferenceIdeal
import proofs.«127862_j34067680592338_1_alg».proof.Proof.Gen.ReferenceIdeal.Run
import proofs.«127862_j34067680592338_1_alg».proof.Proof.Gen.ReferenceIdeal.Read
import proofs.«127862_j34067680592338_1_alg».proof.Proof.Gen.Pre_finite_inputs
import proofs.«127862_j34067680592338_1_alg».proof.Proof.ReferenceProjection
import proofs.«127862_j34067680592338_1_alg».proof.Proof.KernelProjection
import Idealize.ShloMosaic.Adequacy
import Idealize.ShloMosaic.Init

noncomputable section

namespace Cert.Proof

open Idealize.ShloMosaic Idealize.SL.Sem Cert.Kernel

/-- The word-level kernel runs and leaves its arguments as launched. -/
theorem frame_kernel : Cert.frame_Kernel := fun m ρ _ => Cert.Kernel.Gen.frame m ρ

/-- So does the kernel read on extended reals. -/
theorem frame_ideal : Cert.frame_KernelIdeal := fun m ρ _ => Cert.KernelIdeal.Gen.frame m ρ

/-- The reference runs and leaves its arguments as launched: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel is replaced when it is read on extended reals. -/
theorem preserves : Cert.preserves_Kernel_KernelIdeal := trivial

/-- From memories agreeing on the arguments both programs end with the projection of x by the capsule sum of the
    weights: the kernel by its row blocks and the two reshapes, the reference by its one contraction. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
